-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x512x512 : Shape := ⟨4, ![16, 8, 512, 512]⟩
abbrev S_ : Shape := ⟨0, ![]⟩

class Facts : Prop where
  bcast_S_S16x8x512x512 : S_.BroadcastsInDim S16x8x512x512 (![] : Fin 0 → Fin S16x8x512x512.rank)
  reducesTo_S16x8x512x512_S_d0_1_2_3 : S16x8x512x512.ReducesTo [0, 1, 2, 3] S_
  h_S_ : 0 < S_.numel

variable [Facts]

def fn {F : FTy → Type} [FloatOps F] (main_arg0 : FVec F S16x8x512x512 .f32) : IVec S_ 1 :=
  let main_v0 : FVec F S16x8x512x512 .f32 := Host.absf main_arg0
  let main_cst : FVec F S_ .f32 := constant S_ .f32 0x7F800000#32
  let main_v1 : FVec F S16x8x512x512 .f32 := broadcastInDim S16x8x512x512 ![] bcast_S_S16x8x512x512 main_cst
  let main_v2 : IVec S16x8x512x512 1 := cmpf .olt main_v0 main_v1
  let main_c : IVec S_ 1 := constantI S_ 1 1#1
  let main_v3 : IVec S_ 1 := (fun x v => Host.reduce IntOp.andi x v reducesTo_S16x8x512x512_S_d0_1_2_3 h_S_) main_v2 main_c
  main_v3
-- ==== Kernel.lean ====
abbrev S16x8x512x512 : Shape := ⟨4, ![16, 8, 512, 512]⟩
abbrev S128x512x512 : Shape := ⟨3, ![128, 512, 512]⟩
abbrev S2x512x512 : Shape := ⟨3, ![2, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S16x8x512x512, .f32⟩
  | .hbm, ⟨1, _⟩ => ⟨S128x512x512, .f32⟩
  | .hbm, ⟨2, _⟩ => ⟨S128x512x512, .f32⟩
  | .hbm, ⟨3, _⟩ => ⟨S16x8x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | _, _ => ⟨S16x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x8x512x512_S128x512x512 : S16x8x512x512.ShapeCasts S128x512x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  iota_S2x512x512_d1_w32 : S2x512x512.Iotas .tc 32 [1]
  iota_S2x512x512_d2_w32 : S2x512x512.Iotas .tc 32 [2]
  rotates_S2x512x512_d2 : S2x512x512.Rotates 2 none
  rotates_S2x512x512_d1 : S2x512x512.Rotates 1 none
  shapeCasts_S128x512x512_S16x8x512x512 : S128x512x512.ShapeCasts S16x8x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S128x512x512.size a
  hwx0_0 : ∀ i : grid0.Coords, EltTy.bits .f32 = 32 ∨ (Rect.block (s := S128x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S128x512x512.size a
  hwx0_1 : ∀ i : grid0.Coords, EltTy.bits .f32 = 32 ∨ (Rect.block (s := S128x512x512) S2x512x512.size (cc0_transform_1 i) (hinb0_1 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x8x512x512 : Shape := ⟨4, ![16, 8, 512, 512]⟩
abbrev S_ : Shape := ⟨0, ![]⟩
abbrev S16x8x514x514 : Shape := ⟨4, ![16, 8, 514, 514]⟩

abbrev nBuf : Space → Nat
  | .hbm => 48
  | .vmem => 0
  | .smem => 0
  | _ => 0

abbrev bufTy : (tb : Table) → Fin (tcTables nBuf tb) → BufTy
  | .hbm, ⟨0, _⟩ => ⟨S16x8x512x512, .f32⟩
  | .hbm, ⟨1, _⟩ => ⟨S_, .f32⟩
  | .hbm, ⟨2, _⟩ => ⟨S_, .f32⟩
  | .hbm, ⟨3, _⟩ => ⟨S16x8x514x514, .f32⟩
  | .hbm, ⟨4, _⟩ => ⟨S16x8x512x512, .f32⟩
  | .hbm, ⟨5, _⟩ => ⟨S_, .f32⟩
  | .hbm, ⟨6, _⟩ => ⟨S16x8x512x512, .f32⟩
  | .hbm, ⟨7, _⟩ => ⟨S16x8x512x512, .f32⟩
  | .hbm, ⟨8, _⟩ => ⟨S16x8x512x512, .f32⟩
  | .hbm, ⟨9, _⟩ => ⟨S_, .f32⟩
  | .hbm, ⟨10, _⟩ => ⟨S16x8x512x512, .f32⟩
  | .hbm, ⟨11, _⟩ => ⟨S16x8x512x512, .f32⟩
  | .hbm, ⟨12, _⟩ => ⟨S16x8x512x512, .f32⟩
  | .hbm, ⟨13, _⟩ => ⟨S16x8x512x512, .f32⟩
  | .hbm, ⟨14, _⟩ => ⟨S_, .f32⟩
  | .hbm, ⟨15, _⟩ => ⟨S16x8x512x512, .f32⟩
  | .hbm, ⟨16, _⟩ => ⟨S16x8x512x512, .f32⟩
  | .hbm, ⟨17, _⟩ => ⟨S16x8x512x512, .f32⟩
  | .hbm, ⟨18, _⟩ => ⟨S16x8x512x512, .f32⟩
  | .hbm, ⟨19, _⟩ => ⟨S_, .f32⟩
  | .hbm, ⟨20, _⟩ => ⟨S16x8x512x512, .f32⟩
  | .hbm, ⟨21, _⟩ => ⟨S16x8x512x512, .f32⟩
  | .hbm, ⟨22, _⟩ => ⟨S16x8x512x512, .f32⟩
  | .hbm, ⟨23, _⟩ => ⟨S16x8x512x512, .f32⟩
  | .hbm, ⟨24, _⟩ => ⟨S_, .f32⟩
  | .hbm, ⟨25, _⟩ => ⟨S16x8x512x512, .f32⟩
  | .hbm, ⟨26, _⟩ => ⟨S16x8x512x512, .f32⟩
  | .hbm, ⟨27, _⟩ => ⟨S16x8x512x512, .f32⟩
  | .hbm, ⟨28, _⟩ => ⟨S16x8x512x512, .f32⟩
  | .hbm, ⟨29, _⟩ => ⟨S_, .f32⟩
  | .hbm, ⟨30, _⟩ => ⟨S16x8x512x512, .f32⟩
  | .hbm, ⟨31, _⟩ => ⟨S16x8x512x512, .f32⟩
  | .hbm, ⟨32, _⟩ => ⟨S16x8x512x512, .f32⟩
  | .hbm, ⟨33, _⟩ => ⟨S16x8x512x512, .f32⟩
  | .hbm, ⟨34, _⟩ => ⟨S_, .f32⟩
  | .hbm, ⟨35, _⟩ => ⟨S16x8x512x512, .f32⟩
  | .hbm, ⟨36, _⟩ => ⟨S16x8x512x512, .f32⟩
  | .hbm, ⟨37, _⟩ => ⟨S16x8x512x512, .f32⟩
  | .hbm, ⟨38, _⟩ => ⟨S16x8x512x512, .f32⟩
  | .hbm, ⟨39, _⟩ => ⟨S_, .f32⟩
  | .hbm, ⟨40, _⟩ => ⟨S16x8x512x512, .f32⟩
  | .hbm, ⟨41, _⟩ => ⟨S16x8x512x512, .f32⟩
  | .hbm, ⟨42, _⟩ => ⟨S16x8x512x512, .f32⟩
  | .hbm, ⟨43, _⟩ => ⟨S16x8x512x512, .f32⟩
  | .hbm, ⟨44, _⟩ => ⟨S_, .f32⟩
  | .hbm, ⟨45, _⟩ => ⟨S16x8x512x512, .f32⟩
  | .hbm, ⟨46, _⟩ => ⟨S16x8x512x512, .f32⟩
  | .hbm, ⟨47, _⟩ => ⟨S16x8x512x512, .f32⟩
  | _, _ => ⟨S16x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  pads_S16x8x512x512_S16x8x514x514_000_000_110_110 : S16x8x512x512.Pads (![0, 0, 1, 1] : Fin 4 → Nat) ![0, 0, 1, 1] ![0, 0, 0, 0] S16x8x514x514
  h_S_ : 0 < S_.numel
  slices_S16x8x514x514_S16x8x512x512_0_0_0_0 : S16x8x514x514.Slices ![0, 0, 0, 0] S16x8x512x512
  bcast_S_S16x8x512x512 : S_.BroadcastsInDim S16x8x512x512 (![] : Fin 0 → Fin S16x8x512x512.rank)
  slices_S16x8x514x514_S16x8x512x512_0_0_0_1 : S16x8x514x514.Slices ![0, 0, 0, 1] S16x8x512x512
  slices_S16x8x514x514_S16x8x512x512_0_0_0_2 : S16x8x514x514.Slices ![0, 0, 0, 2] S16x8x512x512
  slices_S16x8x514x514_S16x8x512x512_0_0_1_0 : S16x8x514x514.Slices ![0, 0, 1, 0] S16x8x512x512
  slices_S16x8x514x514_S16x8x512x512_0_0_1_1 : S16x8x514x514.Slices ![0, 0, 1, 1] S16x8x512x512
  slices_S16x8x514x514_S16x8x512x512_0_0_1_2 : S16x8x514x514.Slices ![0, 0, 1, 2] S16x8x512x512
  slices_S16x8x514x514_S16x8x512x512_0_0_2_0 : S16x8x514x514.Slices ![0, 0, 2, 0] S16x8x512x512
  slices_S16x8x514x514_S16x8x512x512_0_0_2_1 : S16x8x514x514.Slices ![0, 0, 2, 1] S16x8x512x512
  slices_S16x8x514x514_S16x8x512x512_0_0_2_2 : S16x8x514x514.Slices ![0, 0, 2, 2] S16x8x512x512

variable [Facts₀]

class Facts : Prop extends Facts₀ where

variable [Facts]
-- ==== Proof.Window.lean ====
/-
  The mathematics both programs compute, with no program in sight.

  A plane is a 512 × 512 array of extended reals. FRAMING it surrounds it with one ring of the constant −2: the
  framed plane has entries (r, q) for 0 ≤ r, q ≤ 513, the plane's entry (r, q) sitting at framed position
  (r + 1, q + 1) and −2 everywhere on the ring. The DILATION of the plane at (r, q) is the maximum of the nine framed
  entries (r + i, q + j), 0 ≤ i, j ≤ 2: the plane's entry and its eight neighbours, a missing neighbour counting −2.

  The maximum of nine extended reals does not depend on the order or grouping in which it is taken (max on a
  linear order is associative and commutative), which is all that relates the two programs: one takes the nine
  row by row, left to right; the other takes each row's centre first, then its left and its right entry, and the
  centre row before the upper and the lower one. No arithmetic on the entries is involved, so nothing is asked
  of them: they may be infinite.
-/
import Idealize.ShloMosaic.PureOps.Ideal
import Idealize.ShloMosaic.Lib.ValueIdx

noncomputable section

namespace Cert.Dilation

open Idealize.ShloMosaic Idealize.ShloMosaic.ValueIdx

/-- The constant on the frame: the float word of −2, read as an extended real. Both programs spell it with this
    word, so its value is never needed. -/
abbrev frameValue : EReal := Ideal.ofBits .f32 0xC0000000#32

/-- A 512 × 512 plane of extended reals. -/
abbrev Plane : Type := Fin 512 → Fin 512 → EReal

/-- Entry (r, q) of the framed plane: the plane's entry (r − 1, q − 1) when both coordinates are between 1 and 512,
    the frame's constant otherwise. -/
def framed (P : Plane) (r q : Nat) : EReal :=
  if h : (1 ≤ r ∧ r ≤ 512) ∧ (1 ≤ q ∧ q ≤ 512) then P ⟨r - 1, by omega⟩ ⟨q - 1, by omega⟩ else frameValue

/-- Inside the frame is the plane. -/
theorem framed_inside (P : Plane) (r q : Fin 512) : framed P (r.val + 1) (q.val + 1) = P r q := by
  unfold framed
  rw [dif_pos ⟨⟨by omega, by have := r.isLt; omega⟩, ⟨by omega, by have := q.isLt; omega⟩⟩]
  rfl

/-- Row 0 of the framed plane is frame. -/
theorem framed_row_zero (P : Plane) (q : Nat) : framed P 0 q = frameValue := by
  unfold framed; rw [dif_neg (by omega)]

/-- Row 513 of the framed plane is frame. -/
theorem framed_row_last (P : Plane) (q : Nat) : framed P 513 q = frameValue := by
  unfold framed; rw [dif_neg (by omega)]

/-- Column 0 of the framed plane is frame. -/
theorem framed_col_zero (P : Plane) (r : Nat) : framed P r 0 = frameValue := by
  unfold framed; rw [dif_neg (by omega)]

/-- Column 513 of the framed plane is frame. -/
theorem framed_col_last (P : Plane) (r : Nat) : framed P r 513 = frameValue := by
  unfold framed; rw [dif_neg (by omega)]

/-- The dilation of the plane at (r, q): the maximum of the 3 × 3 window of the framed plane whose top left corner
    is framed entry (r, q), taken row by row and left to right. -/
def dilate (P : Plane) (r q : Nat) : EReal :=
  max (max (max (max (max (max (max (max
    (framed P r q) (framed P r (q + 1))) (framed P r (q + 2)))
    (framed P (r + 1) q)) (framed P (r + 1) (q + 1))) (framed P (r + 1) (q + 2)))
    (framed P (r + 2) q)) (framed P (r + 2) (q + 1))) (framed P (r + 2) (q + 2))

/-- The same maximum taken the other way: in each row the centre, then the left, then the right entry; the centre
    row, then the upper, then the lower one. -/
theorem centre_first_eq_dilate (P : Plane) (r q : Nat) :
    max (max
      (max (max (framed P (r + 1) (q + 1)) (framed P (r + 1) q)) (framed P (r + 1) (q + 2)))
      (max (max (framed P r (q + 1)) (framed P r q)) (framed P r (q + 2))))
      (max (max (framed P (r + 2) (q + 1)) (framed P (r + 2) q)) (framed P (r + 2) (q + 2)))
    = dilate P r q := by
  unfold dilate
  simp only [max_assoc, max_comm, max_left_comm]

/-- Plane n of a stack of 128 planes. -/
abbrev planeOf3 (A : (⟨3, ![128, 512, 512]⟩ : Shape).Idx → EReal) (n : Fin 128) : Plane := fun r q => A (ix3 n r q)

/-- Plane (b, c) of a 16 × 8 batch of planes. -/
abbrev planeOf4 (A : (⟨4, ![16, 8, 512, 512]⟩ : Shape).Idx → EReal) (b : Fin 16) (c : Fin 8) : Plane :=
  fun r q => A (ix4 b c r q)

/-- Every plane of a stack of 128 dilated. -/
def dilate3 (A : (⟨3, ![128, 512, 512]⟩ : Shape).Idx → EReal) : (⟨3, ![128, 512, 512]⟩ : Shape).Idx → EReal :=
  fun i => dilate (planeOf3 A (i 0)) (i 1).val (i 2).val

/-- Every plane of a 16 × 8 batch dilated. -/
def dilate4 (A : (⟨4, ![16, 8, 512, 512]⟩ : Shape).Idx → EReal) : (⟨4, ![16, 8, 512, 512]⟩ : Shape).Idx → EReal :=
  fun i => dilate (planeOf4 A (i 0) (i 1)) (i 2).val (i 3).val

end Cert.Dilation

end
-- ==== Proof.BlockDilates.lean ====
/-
  The kernel's body, read index by index. The body holds a block of two planes. It builds each of the eight
  neighbours of every entry by rotating the block one step along the rows or the columns and then overwriting, with
  the constant −2, exactly the row or the column that the rotation brought around the end: a rotation by 1 along an
  axis moves entry k − 1 to position k (so position 0 receives the last entry and is overwritten), a rotation by 511
  moves entry k + 1 to position k (so position 511 receives the first entry and is overwritten). A block shifted this
  way therefore reads the FRAMED plane one step over: the overwritten row or column is the frame. The upper and lower
  neighbours are shifted again along the columns, which gives the four diagonal ones. The stored value is the
  maximum of the nine, the centre row first: by the regrouping law of the window it is the dilation of the plane.
-/
import proofs.«172510_j84902913507553_2_alg».proof.Proof.Gen.KernelIdeal.Skeleton
import proofs.«172510_j84902913507553_2_alg».proof.Proof.Window
import Idealize.ShloMosaic.Lib.KernelVsHost
import Idealize.ShloMosaic.Lib.Pipeline.Value
import Idealize.ShloMosaic.Lib.Affine

noncomputable section

namespace Cert.KernelIdeal.Dilated

open Idealize.ShloMosaic Idealize.ShloMosaic.ValueIdx Cert.KernelIdeal Cert.KernelIdeal.Gen Cert.Dilation

/-- Entry (p, r, q) of the block v is entry (r + i, q + j) of the framed plane P p, for every entry of the block. -/
def Reads (v : S2x512x512.Idx → EReal) (P : Fin 2 → Plane) (i j : Nat) : Prop :=
  ∀ (p : Fin 2) (r q : Fin 512), v (ix3 p r q) = framed (P p) (r.val + i) (q.val + j)

/-- The planes of a block. -/
abbrev planes (x : S2x512x512.Idx → EReal) : Fin 2 → Plane := fun p r q => x (ix3 p r q)

/-- A block reads its own planes at the centre of the window. -/
theorem reads_self (x : S2x512x512.Idx → EReal) : Reads x (planes x) 1 1 :=
  fun p r q => (framed_inside (planes x p) r q).symm

/-- Two numbers below 2 ^ 32 are equal when their 32-bit words are. -/
theorem ofNat_inj_of_lt {a b : Nat} (ha : a < 512) (hb : b < 512) : BitVec.ofNat 32 a = BitVec.ofNat 32 b ↔ a = b := by
  constructor
  · intro h
    have := congrArg BitVec.toNat h
    simp only [BitVec.toNat_ofNat] at this
    omega
  · intro h; rw [h]

/-- The row mask: the comparison of the row coordinate with the constant n is 1 exactly on row n. -/
theorem mask1_apply (hi : S2x512x512.Iotas .tc 32 [1]) (n : Nat) (hn : n < 512) (p : Fin 2) (r q : Fin 512) :
    cmpi .eq (iota .tc S2x512x512 32 [1] hi) (broadcast S2x512x512 (BitVec.ofNat 32 n)) (ix3 p r q) = 1#1 ↔ r.val = n := by
  show IntOp.cmpi .eq (iota .tc S2x512x512 32 [1] hi (ix3 p r q)) (BitVec.ofNat 32 n) = 1#1 ↔ _
  rw [IntOp.cmpi_eq, iota_single_apply]
  exact ofNat_inj_of_lt r.isLt hn

/-- The column mask: the comparison of the column coordinate with the constant n is 1 exactly on column n. -/
theorem mask2_apply (hi : S2x512x512.Iotas .tc 32 [2]) (n : Nat) (hn : n < 512) (p : Fin 2) (r q : Fin 512) :
    cmpi .eq (iota .tc S2x512x512 32 [2] hi) (broadcast S2x512x512 (BitVec.ofNat 32 n)) (ix3 p r q) = 1#1 ↔ q.val = n := by
  show IntOp.cmpi .eq (iota .tc S2x512x512 32 [2] hi (ix3 p r q)) (BitVec.ofNat 32 n) = 1#1 ↔ _
  rw [IntOp.cmpi_eq, iota_single_apply]
  exact ofNat_inj_of_lt q.isLt hn

/-! ## The four masked rotations -/

/-- The left neighbour: rotate by 1 along the columns and overwrite column 0. A block reading the window's middle column then reads its left column. -/
theorem reads_left {v : S2x512x512.Idx → EReal} {P : Fin 2 → Plane} {i : Nat} (hi : S2x512x512.Iotas .tc 32 [2])
    (hr : S2x512x512.Rotates 2 none) (h : Reads v P i 1) :
    Reads (select (cmpi .eq (iota .tc S2x512x512 32 [2] hi) (broadcast S2x512x512 0#32))
      (broadcast S2x512x512 (Scalar.ofBits (F := Ideal) .f32 0xC0000000#32)) (dynamicRotate 2 1#32 none v hr)) P i 0 := by
  intro p r q
  have hrl : r.val < 512 := r.isLt
  have hql : q.val < 512 := q.isLt
  rw [select_apply]
  by_cases hm : q.val = 0
  · rw [(mask2_apply hi 0 (by omega) p r q).mpr hm, select_one, broadcast_apply, hm]
    show _ = framed (P p) (r.val + i) (0 + 0)
    exact (framed_col_zero (P p) (r.val + i)).symm
  · rw [eq_zero_of_ne_one (mt (mask2_apply hi 0 (by omega) p r q).mp hm), select_zero]
    rw [dynamicRotate_apply 2 1#32 v hr (ix3 p r q) (ix3 p r (⟨q.val - 1, by omega⟩ : Fin 512)) (fun b => by
      by_cases hb : b = 2
      · subst hb; rw [if_pos rfl]; show q.val - 1 = (q.val + 512 - 1 % 512) % 512; omega
      · rw [if_neg hb]
        match b, hb with
        | ⟨0, _⟩, _ => rfl
        | ⟨1, _⟩, _ => rfl
        | ⟨2, _⟩, hb => exact absurd rfl hb)]
    refine (h p r (⟨q.val - 1, by omega⟩ : Fin 512)).trans ?_
    show framed (P p) (r.val + i) (q.val - 1 + 1) = framed (P p) (r.val + i) (q.val + 0)
    congr 1 <;> omega

/-- The right neighbour: rotate by 511 along the columns and overwrite column 511. A block reading the window's middle column then reads its right column. -/
theorem reads_right {v : S2x512x512.Idx → EReal} {P : Fin 2 → Plane} {i : Nat} (hi : S2x512x512.Iotas .tc 32 [2])
    (hr : S2x512x512.Rotates 2 none) (h : Reads v P i 1) :
    Reads (select (cmpi .eq (iota .tc S2x512x512 32 [2] hi) (broadcast S2x512x512 511#32))
      (broadcast S2x512x512 (Scalar.ofBits (F := Ideal) .f32 0xC0000000#32)) (dynamicRotate 2 511#32 none v hr)) P i 2 := by
  intro p r q
  have hrl : r.val < 512 := r.isLt
  have hql : q.val < 512 := q.isLt
  rw [select_apply]
  by_cases hm : q.val = 511
  · rw [(mask2_apply hi 511 (by omega) p r q).mpr hm, select_one, broadcast_apply, hm]
    show _ = framed (P p) (r.val + i) (511 + 2)
    exact (framed_col_last (P p) (r.val + i)).symm
  · rw [eq_zero_of_ne_one (mt (mask2_apply hi 511 (by omega) p r q).mp hm), select_zero]
    rw [dynamicRotate_apply 2 511#32 v hr (ix3 p r q) (ix3 p r (⟨q.val + 1, by omega⟩ : Fin 512)) (fun b => by
      by_cases hb : b = 2
      · subst hb; rw [if_pos rfl]; show q.val + 1 = (q.val + 512 - 511 % 512) % 512; omega
      · rw [if_neg hb]
        match b, hb with
        | ⟨0, _⟩, _ => rfl
        | ⟨1, _⟩, _ => rfl
        | ⟨2, _⟩, hb => exact absurd rfl hb)]
    refine (h p r (⟨q.val + 1, by omega⟩ : Fin 512)).trans ?_
    show framed (P p) (r.val + i) (q.val + 1 + 1) = framed (P p) (r.val + i) (q.val + 2)
    congr 1 <;> omega

/-- The upper neighbour: rotate by 1 along the rows and overwrite row 0. A block reading the window's middle row then reads its upper row. -/
theorem reads_up {v : S2x512x512.Idx → EReal} {P : Fin 2 → Plane} {j : Nat} (hi : S2x512x512.Iotas .tc 32 [1])
    (hr : S2x512x512.Rotates 1 none) (h : Reads v P 1 j) :
    Reads (select (cmpi .eq (iota .tc S2x512x512 32 [1] hi) (broadcast S2x512x512 0#32))
      (broadcast S2x512x512 (Scalar.ofBits (F := Ideal) .f32 0xC0000000#32)) (dynamicRotate 1 1#32 none v hr)) P 0 j := by
  intro p r q
  have hrl : r.val < 512 := r.isLt
  have hql : q.val < 512 := q.isLt
  rw [select_apply]
  by_cases hm : r.val = 0
  · rw [(mask1_apply hi 0 (by omega) p r q).mpr hm, select_one, broadcast_apply, hm]
    show _ = framed (P p) (0 + 0) (q.val + j)
    exact (framed_row_zero (P p) (q.val + j)).symm
  · rw [eq_zero_of_ne_one (mt (mask1_apply hi 0 (by omega) p r q).mp hm), select_zero]
    rw [dynamicRotate_apply 1 1#32 v hr (ix3 p r q) (ix3 p (⟨r.val - 1, by omega⟩ : Fin 512) q) (fun b => by
      by_cases hb : b = 1
      · subst hb; rw [if_pos rfl]; show r.val - 1 = (r.val + 512 - 1 % 512) % 512; omega
      · rw [if_neg hb]
        match b, hb with
        | ⟨0, _⟩, _ => rfl
        | ⟨2, _⟩, _ => rfl
        | ⟨1, _⟩, hb => exact absurd rfl hb)]
    refine (h p (⟨r.val - 1, by omega⟩ : Fin 512) q).trans ?_
    show framed (P p) (r.val - 1 + 1) (q.val + j) = framed (P p) (r.val + 0) (q.val + j)
    congr 1 <;> omega

/-- The lower neighbour: rotate by 511 along the rows and overwrite row 511. A block reading the window's middle row then reads its lower row. -/
theorem reads_down {v : S2x512x512.Idx → EReal} {P : Fin 2 → Plane} {j : Nat} (hi : S2x512x512.Iotas .tc 32 [1])
    (hr : S2x512x512.Rotates 1 none) (h : Reads v P 1 j) :
    Reads (select (cmpi .eq (iota .tc S2x512x512 32 [1] hi) (broadcast S2x512x512 511#32))
      (broadcast S2x512x512 (Scalar.ofBits (F := Ideal) .f32 0xC0000000#32)) (dynamicRotate 1 511#32 none v hr)) P 2 j := by
  intro p r q
  have hrl : r.val < 512 := r.isLt
  have hql : q.val < 512 := q.isLt
  rw [select_apply]
  by_cases hm : r.val = 511
  · rw [(mask1_apply hi 511 (by omega) p r q).mpr hm, select_one, broadcast_apply, hm]
    show _ = framed (P p) (511 + 2) (q.val + j)
    exact (framed_row_last (P p) (q.val + j)).symm
  · rw [eq_zero_of_ne_one (mt (mask1_apply hi 511 (by omega) p r q).mp hm), select_zero]
    rw [dynamicRotate_apply 1 511#32 v hr (ix3 p r q) (ix3 p (⟨r.val + 1, by omega⟩ : Fin 512) q) (fun b => by
      by_cases hb : b = 1
      · subst hb; rw [if_pos rfl]; show r.val + 1 = (r.val + 512 - 511 % 512) % 512; omega
      · rw [if_neg hb]
        match b, hb with
        | ⟨0, _⟩, _ => rfl
        | ⟨2, _⟩, _ => rfl
        | ⟨1, _⟩, hb => exact absurd rfl hb)]
    refine (h p (⟨r.val + 1, by omega⟩ : Fin 512) q).trans ?_
    show framed (P p) (r.val + 1 + 1) (q.val + j) = framed (P p) (r.val + 2) (q.val + j)
    congr 1 <;> omega

/-! ## The stored value -/

/-- WHAT THE BODY STORES at entry (p, r, q) of its block is the dilation of the loaded block's plane p at (r, q). -/
theorem stored_apply (x : Vec Ideal S2x512x512 .f32) (p : Fin 2) (r q : Fin 512) :
    k0_pay1 (F := Ideal) (iota .tc S2x512x512 32 [2] iota_S2x512x512_d2_w32) (k0_pay3 x) (k0_pay4 x) k0_pay5 (k0_pay6 (F := Ideal)) (ix3 p r q)
      = dilate (planes x p) r.val q.val := by
  have hx : Reads (k0_pay2 x) (planes x) 1 1 := by
    unfold k0_pay2; rw [shapeCast_self]; exact reads_self x
  have hxl := reads_left iota_S2x512x512_d2_w32 rotates_S2x512x512_d2 hx
  have hxr := reads_right iota_S2x512x512_d2_w32 rotates_S2x512x512_d2 hx
  have hu := reads_up iota_S2x512x512_d1_w32 rotates_S2x512x512_d1 hx
  have hul := reads_left iota_S2x512x512_d2_w32 rotates_S2x512x512_d2 hu
  have hur := reads_right iota_S2x512x512_d2_w32 rotates_S2x512x512_d2 hu
  have hd := reads_down iota_S2x512x512_d1_w32 rotates_S2x512x512_d1 hx
  have hdl := reads_left iota_S2x512x512_d2_w32 rotates_S2x512x512_d2 hd
  have hdr := reads_right iota_S2x512x512_d2_w32 rotates_S2x512x512_d2 hd
  unfold k0_pay1 k0_pay3 k0_pay4 k0_pay5 k0_pay6
  simp only [maximumf_apply]
  rw [hdr p r q, hdl p r q, hd p r q, hur p r q, hul p r q, hu p r q, hxr p r q, hxl p r q, hx p r q]
  exact centre_first_eq_dilate (planes x p) r.val q.val

end Cert.KernelIdeal.Dilated

end
-- ==== Proof.StackDilates.lean ====
/-
  From blocks to the stack. The region runs over 64 grid points; point t stages planes 2t and 2t + 1 of the stack of
  128 planes (its input block), and writes its stored block back to planes 2t and 2t + 1 of the output stack. The
  dilation of a plane involves that plane alone, so what point t writes back is the restriction to planes 2t, 2t + 1
  of ONE function of the whole input stack: every plane dilated. Plane n lies in the block of point n / 2, so the
  blocks cover the output stack, which therefore ends holding the dilated stack.
-/
import proofs.«172510_j84902913507553_2_alg».proof.Proof.Gen.KernelIdeal.Frame
import proofs.«172510_j84902913507553_2_alg».proof.Proof.BlockDilates
import Idealize.ShloMosaic.Lib.Pipeline.Value

set_option maxRecDepth 16384

noncomputable section

namespace Cert.KernelIdeal.Dilated

open Idealize.ShloMosaic Idealize.ShloMosaic.TcCoe Idealize.ShloMosaic.ValueIdx Idealize.SL.Sem
open Idealize.ShloMosaic.Pipeline (Dat)
open Cert.KernelIdeal Cert.KernelIdeal.Gen Cert.Dilation

variable (m : (ℓ : Loc nD τ sig) → Buf (Elt Ideal) ℓ) (ρ : Dev nD → PrngReg)

theorem offsets_zero : (![0, 0, 0] : Fin 3 → Nat) = fun _ => 0 := funext fun a => by fin_cases a <;> rfl

/-- A stored block whose loaded block is planes 2n, 2n + 1 of a stack is those two planes of the dilated stack. -/
theorem stored_eq_dilate3 (x : Vec Ideal S2x512x512 .f32) (A : S128x512x512.Idx → EReal) (n : Nat) (hn : n < 64)
    (hx : ∀ (p : Fin 2) (r q : Fin 512), x (ix3 p r q) = A (ix3 (⟨2 * n + p.val, by omega⟩ : Fin 128) r q))
    (j : S2x512x512.Idx) (i : S128x512x512.Idx)
    (h0 : (i 0).val = 2 * n + (j 0).val) (h1 : (i 1).val = (j 1).val) (h2 : (i 2).val = (j 2).val) :
    k0_pay1 (F := Ideal) (iota .tc S2x512x512 32 [2] iota_S2x512x512_d2_w32) (k0_pay3 x) (k0_pay4 x) k0_pay5 (k0_pay6 (F := Ideal)) j
      = dilate3 A i := by
  obtain ⟨p, r, q, rfl⟩ : ∃ (p : Fin 2) (r q : Fin 512), j = ix3 p r q := ⟨j 0, j 1, j 2, eq_ix3 j⟩
  have hn' : 2 * n + p.val < 128 := by have hp : p.val < 2 := p.isLt; omega
  have hi : i = ix3 (⟨2 * n + p.val, hn'⟩ : Fin 128) r q := funext fun a => Fin.ext (match a with
    | ⟨0, _⟩ => h0
    | ⟨1, _⟩ => h1
    | ⟨2, _⟩ => h2)
  rw [hi, stored_apply]
  show dilate (planes x p) r.val q.val = dilate (planeOf3 A (⟨2 * n + p.val, hn'⟩ : Fin 128)) r.val q.val
  congr 1
  funext r' q'
  exact hx p r' q'

/-- The printed index maps, decided over the 64 grid points: both windows' block at point t is block (t, 0, 0). -/
theorem block_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- WHAT POINT t WRITES BACK is block t of the dilated stack, the stack being the input array as the region finds it. -/
theorem flushed_eq (c : Dev nD) (t : Fin cfg0.N) :
    (dats m 0 c).flushed 1 t = ((cfg0.win 1).blk t).view.read (Elt Ideal) (dilate3 (V m c main_v0)) := by
  show (cfg0.win 1).cut (grid0.coords t) ((dats m 0 c).after 1 t) = _
  rw [after0_1]
  unfold out0_1
  rw [View.canon_unit_zero offsets_zero]
  simp only [View.ld_unit_zero (S := S2x512x512) offsets_zero]
  obtain ⟨e0, e1, e2, e3, e4, e5⟩ := block_index t
  have ht : t.val < 64 := lt_of_lt_of_eq t.isLt N_0
  funext j
  refine stored_eq_dilate3 (iblk m c 0 t) (V m c main_v0) t.val ht (fun p r q => ?_) j (((cfg0.win 1).blk t).view.emb j) ?_ ?_ ?_
  · show V m c main_v0 (((cfg0.win 0).blk t).view.emb (ix3 p r q)) = V m c main_v0 _
    refine congrArg (V m c main_v0) (funext fun a => Fin.ext ?_)
    match a with
    | ⟨0, _⟩ => show win0_0.index t (0 : Fin 3) * 2 + 1 * p.val = 2 * t.val + p.val; omega
    | ⟨1, _⟩ => show win0_0.index t (1 : Fin 3) * 512 + 1 * r.val = r.val; omega
    | ⟨2, _⟩ => show win0_0.index t (2 : Fin 3) * 512 + 1 * q.val = q.val; omega
  · show win0_1.index t (0 : Fin 3) * 2 + 1 * (j 0).val = 2 * t.val + (j 0).val; omega
  · show win0_1.index t (1 : Fin 3) * 512 + 1 * (j 1).val = (j 1).val; omega
  · show win0_1.index t (2 : Fin 3) * 512 + 1 * (j 2).val = (j 2).val; omega

/-- An index of the output stack is in point t's block iff each coordinate is in the block's range on its axis. -/
theorem mem_block (t : Fin cfg0.N) (i : S128x512x512.Idx) :
    i ∈ ((cfg0.win 1).blk t).view.set ↔ ∀ a : Fin 3, win0_1.index t a * S2x512x512.size a ≤ (i a).val
      ∧ (i a).val < win0_1.index t a * S2x512x512.size a + S2x512x512.size a := by
  show i ∈ ((View.whole main_v1).slice (win0_1.rect t)).set ↔ _
  rw [View.set_slice_whole, Rect.mem_set_unit]
  exact Iff.rfl

/-- Plane n of the output stack is in the block of point n / 2. -/
theorem covered (i : S128x512x512.Idx) :
    ∃ t : Fin cfg0.N, (cfg0.win 1).flush t = true ∧ i ∈ ((cfg0.win 1).blk t).view.set := by
  have h0 : (i 0).val < 128 := (i 0).isLt
  have h1 : (i 1).val < 512 := (i 1).isLt
  have h2 : (i 2).val < 512 := (i 2).isLt
  have hN : cfg0.N = 64 := N_0
  let t : Fin cfg0.N := ⟨(i 0).val / 2, by rw [hN]; omega⟩
  obtain ⟨e0, e1, e2, e3, e4, e5⟩ := block_index t
  have e3' : win0_1.index t (0 : Fin 3) = (i 0).val / 2 := e3
  refine ⟨t, flush0_1 t, ?_⟩
  rw [mem_block]
  intro a
  match a with
  | ⟨0, _⟩ => show win0_1.index t (0 : Fin 3) * 2 ≤ (i 0).val ∧ (i 0).val < win0_1.index t (0 : Fin 3) * 2 + 2; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- THE OUTPUT STACK after the region is the input stack with every plane dilated. -/
theorem stack_dilated (c : Dev nD) : (dats m 0 c).arrAt 1 cfg0.N = dilate3 (V m c main_v0) :=
  (dats m 0 c).arrAt_eq_of_cover 1 (dilate3 (V m c main_v0)) (fun t _ => flushed_eq m c t) covered

end Cert.KernelIdeal.Dilated

end
-- ==== Proof.Regroup.lean ====
/-
  Regrouping. A 16 × 8 batch of planes and a stack of 128 planes are the same data in row-major order: plane (b, c)
  of the batch is plane 8b + c of the stack, entry for entry. The dilation acts on each plane by itself, so regrouping
  the batch into a stack, dilating every plane of the stack and regrouping back is dilating every plane of the batch.
-/
import proofs.«172510_j84902913507553_2_alg».proof.Proof.Window
import Idealize.ShloMosaic.Lib.Pipeline.Value

noncomputable section

namespace Cert.Dilation

open Idealize.ShloMosaic Idealize.ShloMosaic.ValueIdx

/-- Entry (r, q) of plane 8b + c of the stack is entry (r, q) of plane (b, c) of the batch. -/
theorem stack_apply (a : (⟨4, ![16, 8, 512, 512]⟩ : Shape).Idx → EReal)
    (h : (⟨4, ![16, 8, 512, 512]⟩ : Shape).ShapeCasts ⟨3, ![128, 512, 512]⟩) (b : Fin 16) (c : Fin 8) (hn : 8 * b.val + c.val < 128)
    (r q : Fin 512) :
    shapeCast (⟨3, ![128, 512, 512]⟩ : Shape) a h (ix3 (⟨8 * b.val + c.val, hn⟩ : Fin 128) r q) = a (ix4 b c r q) :=
  shapeCast_apply a h _ _ (by
    rw [Shape.rowMajor_val_three, Shape.rowMajor_val_four]
    show ((b.val * 8 + c.val) * 512 + r.val) * 512 + q.val = ((8 * b.val + c.val) * 512 + r.val) * 512 + q.val
    omega)

/-- Stack, dilate every plane, unstack: every plane of the batch dilated. -/
theorem unstack_dilate3_stack (a : (⟨4, ![16, 8, 512, 512]⟩ : Shape).Idx → EReal)
    (h : (⟨4, ![16, 8, 512, 512]⟩ : Shape).ShapeCasts ⟨3, ![128, 512, 512]⟩)
    (h' : (⟨3, ![128, 512, 512]⟩ : Shape).ShapeCasts ⟨4, ![16, 8, 512, 512]⟩) :
    shapeCast (⟨4, ![16, 8, 512, 512]⟩ : Shape) (dilate3 (shapeCast (⟨3, ![128, 512, 512]⟩ : Shape) a h)) h' = dilate4 a := by
  funext i
  obtain ⟨b, c, r, q, rfl⟩ : ∃ (b : Fin 16) (c : Fin 8) (r q : Fin 512), i = ix4 b c r q := ⟨i 0, i 1, i 2, i 3, eq_ix4 i⟩
  have hb : b.val < 16 := b.isLt
  have hc : c.val < 8 := c.isLt
  have hn : 8 * b.val + c.val < 128 := by omega
  rw [shapeCast_apply _ h' (ix4 b c r q) (ix3 (⟨8 * b.val + c.val, hn⟩ : Fin 128) r q) (by
    rw [Shape.rowMajor_val_three, Shape.rowMajor_val_four]
    show ((8 * b.val + c.val) * 512 + r.val) * 512 + q.val = ((b.val * 8 + c.val) * 512 + r.val) * 512 + q.val
    omega)]
  show dilate (planeOf3 (shapeCast (⟨3, ![128, 512, 512]⟩ : Shape) a h) (⟨8 * b.val + c.val, hn⟩ : Fin 128)) r.val q.val
    = dilate (planeOf4 a b c) r.val q.val
  congr 1
  funext r' q'
  exact stack_apply a h b c hn r' q'

end Cert.Dilation

end
-- ==== Proof.BatchDilates.lean ====
/-
  The whole idealized kernel program. The host regroups the 16 × 8 batch into a stack of 128 planes, the region
  dilates every plane of the stack, and the host regroups the stack back into a batch. By the regrouping law the
  result is the batch with every plane dilated, a function of the argument array alone.
-/
import proofs.«172510_j84902913507553_2_alg».proof.Proof.StackDilates
import proofs.«172510_j84902913507553_2_alg».proof.Proof.Regroup
import Idealize.ShloMosaic.Lib.StableHlo.Run

set_option maxRecDepth 16384

noncomputable section

namespace Cert.KernelIdeal.Dilated

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Dilation

variable (m : (ℓ : Loc nD τ sig) → Buf (Elt Ideal) ℓ) (ρ : Dev nD → PrngReg)

/-- The stack the region finds is the argument batch regrouped. -/
theorem stack_eq (c : Dev nD) :
    (V m c main_v0 : S128x512x512.Idx → EReal)
      = shapeCast S128x512x512 (m ((c : Thread nD τ).loc main_arg0)) shapeCasts_S16x8x512x512_S128x512x512 := by
  show StableHlo.after hostOps0 (fun b => m (c, b)) (Proc.devRef .tc main_v0) = _
  after_results
  rfl

/-- The program's result: the region's output stack regrouped, which is the argument batch with every plane dilated. -/
theorem result_eq (c : Dev nD) :
    (Pipeline.afterTail₀ cfgs (dats m) 0 (V0 m) [hostOps1] c main_v2 : S16x8x512x512.Idx → EReal)
      = dilate4 (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = dilate3 (shapeCast S128x512x512 (m ((c : Thread nD τ).loc main_arg0)) shapeCasts_S16x8x512x512_S128x512x512) :=
    ((Pipeline.withArrays_arr spec0 launch0.win.arr_inj c _ _ 1).trans (stack_dilated m c)).trans
      (congrArg dilate3 (stack_eq m c))
  rw [e]
  exact unstack_dilate3_stack _ _ _

/-- THE RUN of the idealized kernel program: every weakly fair execution terminates with the result array at the
    argument batch with every plane dilated, and the argument array as it was. -/
theorem run : θ_run defs (onTc (τ := τ) (main (F := Ideal))) ⟨m, fun _ => 0, ρ⟩ fun r => ∀ c : Dev nD,
      r.2.mem ((c : Thread nD τ).loc main_v2) = dilate4 (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Dilated

end
-- ==== Proof.ReferenceDilates.lean ====
/-
  The reference, read index by index: it frames every plane of the batch with one ring of −2 (a pad by one on each
  side of the two plane axes), cuts the nine 512 × 512 windows of the framed plane at offsets (i, j), 0 ≤ i, j ≤ 2,
  adds the constant 0 to each (the bias of an all-ones structuring element) and takes their maximum row by row, left
  to right. Adding 0 changes no extended real, finite or not, so the result at plane entry (r, q) is the maximum of the
  framed entries (r + i, q + j): the dilation.
-/
import proofs.«172510_j84902913507553_2_alg».proof.Proof.Gen.ReferenceIdeal.Read
import proofs.«172510_j84902913507553_2_alg».proof.Proof.Window
import Idealize.ShloMosaic.Lib.KernelVsHost
import Idealize.ShloMosaic.PureOps.Ideal.Laws

noncomputable section

namespace Cert.ReferenceIdeal.Dilated

open Idealize.ShloMosaic Idealize.ShloMosaic.ValueIdx Cert.ReferenceIdeal Cert.ReferenceIdeal.Gen Cert.ReferenceIdeal.Read Cert.Dilation

/-- The padded batch at an index is the framed plane of that index's batch coordinates at its two plane
    coordinates: inside the ring the pad reads its operand one entry up and to the left, on the ring its padding
    value, the word of −2. -/
theorem padded_apply (x0 : (⟨S16x8x512x512, .f32⟩ : BufTy).Contents (Elt Ideal)) (j : S16x8x514x514.Idx) :
    val_main_v0 (F := Ideal) x0 j
      = framed (planeOf4 x0 ⟨(j 0).val, (j 0).isLt⟩ ⟨(j 1).val, (j 1).isLt⟩) (j 2).val (j 3).val := by
  have h2 : (j 2).val < 514 := (j 2).isLt
  have h3 : (j 3).val < 514 := (j 3).isLt
  unfold val_main_v0 framed
  by_cases h : (1 ≤ (j 2).val ∧ (j 2).val ≤ 512) ∧ (1 ≤ (j 3).val ∧ (j 3).val ≤ 512)
  · rw [dif_pos h]
    exact pad_apply_of_inside ![0, 0, 1, 1] ![0, 0, 1, 1] ![0, 0, 0, 0] x0 _ pads_S16x8x512x512_S16x8x514x514_000_000_110_110 h_S_ j
      (ix4 (⟨(j 0).val, (j 0).isLt⟩ : Fin 16) (⟨(j 1).val, (j 1).isLt⟩ : Fin 8) (⟨(j 2).val - 1, by omega⟩ : Fin 512) (⟨(j 3).val - 1, by omega⟩ : Fin 512))
      (fun a => match a with
        | ⟨0, _⟩ => by show (j 0).val = 0 + (j 0).val * (0 + 1); omega
        | ⟨1, _⟩ => by show (j 1).val = 0 + (j 1).val * (0 + 1); omega
        | ⟨2, _⟩ => by show (j 2).val = 1 + ((j 2).val - 1) * (0 + 1); omega
        | ⟨3, _⟩ => by show (j 3).val = 1 + ((j 3).val - 1) * (0 + 1); omega)
  · rw [dif_neg h]
    by_cases hr : 1 ≤ (j 2).val ∧ (j 2).val ≤ 512
    · have hq : ¬(1 ≤ (j 3).val ∧ (j 3).val ≤ 512) := fun hq => h ⟨hr, hq⟩
      exact (pad_apply_of_not_inside ![0, 0, 1, 1] ![0, 0, 1, 1] ![0, 0, 0, 0] x0 _ pads_S16x8x512x512_S16x8x514x514_000_000_110_110 h_S_ j (3 : Fin 4) (by
        show ¬(1 ≤ (j 3).val ∧ ((j 3).val - 1) % (0 + 1) = 0 ∧ ((j 3).val - 1) / (0 + 1) < 512)
        omega)).trans rfl
    · exact (pad_apply_of_not_inside ![0, 0, 1, 1] ![0, 0, 1, 1] ![0, 0, 0, 0] x0 _ pads_S16x8x512x512_S16x8x514x514_000_000_110_110 h_S_ j (2 : Fin 4) (by
        show ¬(1 ≤ (j 2).val ∧ ((j 2).val - 1) % (0 + 1) = 0 ∧ ((j 2).val - 1) / (0 + 1) < 512)
        omega)).trans rfl

/-! ## The nine windows: the slice at offsets (i, j) reads the framed plane at (r + i, q + j) -/

theorem window_v1 (x0 : (⟨S16x8x512x512, .f32⟩ : BufTy).Contents (Elt Ideal)) (b : Fin 16) (c : Fin 8) (r q : Fin 512) :
    val_main_v1 (F := Ideal) x0 (ix4 b c r q) = framed (planeOf4 x0 b c) (r.val + 0) (q.val + 0) := by
  rw [val_main_v1_apply, padded_apply]
  show framed (planeOf4 x0 b c) (r.val) (q.val) = framed (planeOf4 x0 b c) (r.val + 0) (q.val + 0)
  congr 1 <;> omega

theorem window_v4 (x0 : (⟨S16x8x512x512, .f32⟩ : BufTy).Contents (Elt Ideal)) (b : Fin 16) (c : Fin 8) (r q : Fin 512) :
    val_main_v4 (F := Ideal) x0 (ix4 b c r q) = framed (planeOf4 x0 b c) (r.val + 0) (q.val + 1) := by
  rw [val_main_v4_apply, padded_apply]
  show framed (planeOf4 x0 b c) (r.val) (1 + q.val) = framed (planeOf4 x0 b c) (r.val + 0) (q.val + 1)
  congr 1 <;> omega

theorem window_v8 (x0 : (⟨S16x8x512x512, .f32⟩ : BufTy).Contents (Elt Ideal)) (b : Fin 16) (c : Fin 8) (r q : Fin 512) :
    val_main_v8 (F := Ideal) x0 (ix4 b c r q) = framed (planeOf4 x0 b c) (r.val + 0) (q.val + 2) := by
  rw [val_main_v8_apply, padded_apply]
  show framed (planeOf4 x0 b c) (r.val) (2 + q.val) = framed (planeOf4 x0 b c) (r.val + 0) (q.val + 2)
  congr 1 <;> omega

theorem window_v12 (x0 : (⟨S16x8x512x512, .f32⟩ : BufTy).Contents (Elt Ideal)) (b : Fin 16) (c : Fin 8) (r q : Fin 512) :
    val_main_v12 (F := Ideal) x0 (ix4 b c r q) = framed (planeOf4 x0 b c) (r.val + 1) (q.val + 0) := by
  rw [val_main_v12_apply, padded_apply]
  show framed (planeOf4 x0 b c) (1 + r.val) (q.val) = framed (planeOf4 x0 b c) (r.val + 1) (q.val + 0)
  congr 1 <;> omega

theorem window_v16 (x0 : (⟨S16x8x512x512, .f32⟩ : BufTy).Contents (Elt Ideal)) (b : Fin 16) (c : Fin 8) (r q : Fin 512) :
    val_main_v16 (F := Ideal) x0 (ix4 b c r q) = framed (planeOf4 x0 b c) (r.val + 1) (q.val + 1) := by
  rw [val_main_v16_apply, padded_apply]
  show framed (planeOf4 x0 b c) (1 + r.val) (1 + q.val) = framed (planeOf4 x0 b c) (r.val + 1) (q.val + 1)
  congr 1 <;> omega

theorem window_v20 (x0 : (⟨S16x8x512x512, .f32⟩ : BufTy).Contents (Elt Ideal)) (b : Fin 16) (c : Fin 8) (r q : Fin 512) :
    val_main_v20 (F := Ideal) x0 (ix4 b c r q) = framed (planeOf4 x0 b c) (r.val + 1) (q.val + 2) := by
  rw [val_main_v20_apply, padded_apply]
  show framed (planeOf4 x0 b c) (1 + r.val) (2 + q.val) = framed (planeOf4 x0 b c) (r.val + 1) (q.val + 2)
  congr 1 <;> omega

theorem window_v24 (x0 : (⟨S16x8x512x512, .f32⟩ : BufTy).Contents (Elt Ideal)) (b : Fin 16) (c : Fin 8) (r q : Fin 512) :
    val_main_v24 (F := Ideal) x0 (ix4 b c r q) = framed (planeOf4 x0 b c) (r.val + 2) (q.val + 0) := by
  rw [val_main_v24_apply, padded_apply]
  show framed (planeOf4 x0 b c) (2 + r.val) (q.val) = framed (planeOf4 x0 b c) (r.val + 2) (q.val + 0)
  congr 1 <;> omega

theorem window_v28 (x0 : (⟨S16x8x512x512, .f32⟩ : BufTy).Contents (Elt Ideal)) (b : Fin 16) (c : Fin 8) (r q : Fin 512) :
    val_main_v28 (F := Ideal) x0 (ix4 b c r q) = framed (planeOf4 x0 b c) (r.val + 2) (q.val + 1) := by
  rw [val_main_v28_apply, padded_apply]
  show framed (planeOf4 x0 b c) (2 + r.val) (1 + q.val) = framed (planeOf4 x0 b c) (r.val + 2) (q.val + 1)
  congr 1 <;> omega

theorem window_v32 (x0 : (⟨S16x8x512x512, .f32⟩ : BufTy).Contents (Elt Ideal)) (b : Fin 16) (c : Fin 8) (r q : Fin 512) :
    val_main_v32 (F := Ideal) x0 (ix4 b c r q) = framed (planeOf4 x0 b c) (r.val + 2) (q.val + 2) := by
  rw [val_main_v32_apply, padded_apply]
  show framed (planeOf4 x0 b c) (2 + r.val) (2 + q.val) = framed (planeOf4 x0 b c) (r.val + 2) (q.val + 2)
  congr 1 <;> omega

/-! ## The nine biases: each is the constant 0 -/

theorem bias_v2 (i : S16x8x512x512.Idx) : val_main_v2 (F := Ideal) i = 0 := by
  rw [val_main_v2_apply, val_main_cst_0_apply]; exact Ideal.ofBits_zero_f32

theorem bias_v5 (i : S16x8x512x512.Idx) : val_main_v5 (F := Ideal) i = 0 := by
  rw [val_main_v5_apply, val_main_cst_1_apply]; exact Ideal.ofBits_zero_f32

theorem bias_v9 (i : S16x8x512x512.Idx) : val_main_v9 (F := Ideal) i = 0 := by
  rw [val_main_v9_apply, val_main_cst_2_apply]; exact Ideal.ofBits_zero_f32

theorem bias_v13 (i : S16x8x512x512.Idx) : val_main_v13 (F := Ideal) i = 0 := by
  rw [val_main_v13_apply, val_main_cst_3_apply]; exact Ideal.ofBits_zero_f32

theorem bias_v17 (i : S16x8x512x512.Idx) : val_main_v17 (F := Ideal) i = 0 := by
  rw [val_main_v17_apply, val_main_cst_4_apply]; exact Ideal.ofBits_zero_f32

theorem bias_v21 (i : S16x8x512x512.Idx) : val_main_v21 (F := Ideal) i = 0 := by
  rw [val_main_v21_apply, val_main_cst_5_apply]; exact Ideal.ofBits_zero_f32

theorem bias_v25 (i : S16x8x512x512.Idx) : val_main_v25 (F := Ideal) i = 0 := by
  rw [val_main_v25_apply, val_main_cst_6_apply]; exact Ideal.ofBits_zero_f32

theorem bias_v29 (i : S16x8x512x512.Idx) : val_main_v29 (F := Ideal) i = 0 := by
  rw [val_main_v29_apply, val_main_cst_7_apply]; exact Ideal.ofBits_zero_f32

theorem bias_v33 (i : S16x8x512x512.Idx) : val_main_v33 (F := Ideal) i = 0 := by
  rw [val_main_v33_apply, val_main_cst_8_apply]; exact Ideal.ofBits_zero_f32

/-- Each window with its bias added is the window: x + 0 = x for every extended real. -/
theorem biased_v3 (x0 : (⟨S16x8x512x512, .f32⟩ : BufTy).Contents (Elt Ideal)) (b : Fin 16) (c : Fin 8) (r q : Fin 512) :
    val_main_v3 (F := Ideal) x0 (ix4 b c r q) = framed (planeOf4 x0 b c) (r.val + 0) (q.val + 0) := by
  rw [val_main_v3_apply, window_v1, bias_v2]; exact add_zero _

theorem biased_v6 (x0 : (⟨S16x8x512x512, .f32⟩ : BufTy).Contents (Elt Ideal)) (b : Fin 16) (c : Fin 8) (r q : Fin 512) :
    val_main_v6 (F := Ideal) x0 (ix4 b c r q) = framed (planeOf4 x0 b c) (r.val + 0) (q.val + 1) := by
  rw [val_main_v6_apply, window_v4, bias_v5]; exact add_zero _

theorem biased_v10 (x0 : (⟨S16x8x512x512, .f32⟩ : BufTy).Contents (Elt Ideal)) (b : Fin 16) (c : Fin 8) (r q : Fin 512) :
    val_main_v10 (F := Ideal) x0 (ix4 b c r q) = framed (planeOf4 x0 b c) (r.val + 0) (q.val + 2) := by
  rw [val_main_v10_apply, window_v8, bias_v9]; exact add_zero _

theorem biased_v14 (x0 : (⟨S16x8x512x512, .f32⟩ : BufTy).Contents (Elt Ideal)) (b : Fin 16) (c : Fin 8) (r q : Fin 512) :
    val_main_v14 (F := Ideal) x0 (ix4 b c r q) = framed (planeOf4 x0 b c) (r.val + 1) (q.val + 0) := by
  rw [val_main_v14_apply, window_v12, bias_v13]; exact add_zero _

theorem biased_v18 (x0 : (⟨S16x8x512x512, .f32⟩ : BufTy).Contents (Elt Ideal)) (b : Fin 16) (c : Fin 8) (r q : Fin 512) :
    val_main_v18 (F := Ideal) x0 (ix4 b c r q) = framed (planeOf4 x0 b c) (r.val + 1) (q.val + 1) := by
  rw [val_main_v18_apply, window_v16, bias_v17]; exact add_zero _

theorem biased_v22 (x0 : (⟨S16x8x512x512, .f32⟩ : BufTy).Contents (Elt Ideal)) (b : Fin 16) (c : Fin 8) (r q : Fin 512) :
    val_main_v22 (F := Ideal) x0 (ix4 b c r q) = framed (planeOf4 x0 b c) (r.val + 1) (q.val + 2) := by
  rw [val_main_v22_apply, window_v20, bias_v21]; exact add_zero _

theorem biased_v26 (x0 : (⟨S16x8x512x512, .f32⟩ : BufTy).Contents (Elt Ideal)) (b : Fin 16) (c : Fin 8) (r q : Fin 512) :
    val_main_v26 (F := Ideal) x0 (ix4 b c r q) = framed (planeOf4 x0 b c) (r.val + 2) (q.val + 0) := by
  rw [val_main_v26_apply, window_v24, bias_v25]; exact add_zero _

theorem biased_v30 (x0 : (⟨S16x8x512x512, .f32⟩ : BufTy).Contents (Elt Ideal)) (b : Fin 16) (c : Fin 8) (r q : Fin 512) :
    val_main_v30 (F := Ideal) x0 (ix4 b c r q) = framed (planeOf4 x0 b c) (r.val + 2) (q.val + 1) := by
  rw [val_main_v30_apply, window_v28, bias_v29]; exact add_zero _

theorem biased_v34 (x0 : (⟨S16x8x512x512, .f32⟩ : BufTy).Contents (Elt Ideal)) (b : Fin 16) (c : Fin 8) (r q : Fin 512) :
    val_main_v34 (F := Ideal) x0 (ix4 b c r q) = framed (planeOf4 x0 b c) (r.val + 2) (q.val + 2) := by
  rw [val_main_v34_apply, window_v32, bias_v33]; exact add_zero _

/-- THE REFERENCE IS THE DILATION of every plane of the batch: its chain of eight maxima over the nine biased
    windows, in the program's order, is the dilation's own. -/
theorem reference_eq_dilate4 (x0 : (⟨S16x8x512x512, .f32⟩ : BufTy).Contents (Elt Ideal)) : val_main_v35 (F := Ideal) x0 = dilate4 x0 := by
  funext i
  obtain ⟨b, c, r, q, rfl⟩ : ∃ (b : Fin 16) (c : Fin 8) (r q : Fin 512), i = ix4 b c r q := ⟨i 0, i 1, i 2, i 3, eq_ix4 i⟩
  rw [val_main_v35_apply, val_main_v31_apply, val_main_v27_apply, val_main_v23_apply, val_main_v19_apply,
    val_main_v15_apply, val_main_v11_apply, val_main_v7_apply,
    biased_v3, biased_v6, biased_v10, biased_v14, biased_v18, biased_v22, biased_v26, biased_v30, biased_v34]
  rfl

end Cert.ReferenceIdeal.Dilated

end
-- ==== Proof.lean ====
/- Morphological dilation by a 3 × 3 structuring element of ones, on a 16 × 8 batch of 512 × 512 planes: at every
   entry of every plane, the maximum of the entry and its eight neighbours, a neighbour outside the plane counting −2.

   The kernel regroups the batch into a stack of 128 planes, handles two planes per grid point, builds the eight
   neighbours by rotating the block one step along the rows or the columns and overwriting the row or column that came
   around the end with −2, and takes the nine-fold maximum with the centre row and centre column first. The reference
   frames every plane with a ring of −2, cuts the nine shifted 512 × 512 windows, adds the constant 0 to each, and
   takes the maximum row by row. Read on the extended reals both are the same function of the argument: a rotation
   followed by the overwrite reads the framed plane one step over (Proof/BlockDilates), adding 0 changes nothing
   (Proof/ReferenceDilates), and a maximum of nine does not depend on order or grouping (Proof/Window). Nothing here
   needs the entries finite: only x + 0 = x and the associativity and commutativity of max are used, and both hold at
   the infinities. The grid's blocks tile the stack (Proof/StackDilates), and regrouping commutes with a plane-wise
   operation (Proof/Regroup, Proof/BatchDilates).

   The three frames: the two kernel programs' from their generated frame runs, the reference's from its generated run
   with the result dropped. The idealization rewrote nothing, so there is nothing to preserve. -/
import proofs.«172510_j84902913507553_2_alg».proof.Defs
import proofs.«172510_j84902913507553_2_alg».proof.Proof.Gen.Kernel
import proofs.«172510_j84902913507553_2_alg».proof.Proof.Gen.Kernel.Skeleton
import proofs.«172510_j84902913507553_2_alg».proof.Proof.Gen.Kernel.Launch
import proofs.«172510_j84902913507553_2_alg».proof.Proof.Gen.Kernel.Points
import proofs.«172510_j84902913507553_2_alg».proof.Proof.Gen.Kernel.Frame
import proofs.«172510_j84902913507553_2_alg».proof.Proof.Gen.KernelIdeal
import proofs.«172510_j84902913507553_2_alg».proof.Proof.Gen.KernelIdeal.Skeleton
import proofs.«172510_j84902913507553_2_alg».proof.Proof.Gen.KernelIdeal.Launch
import proofs.«172510_j84902913507553_2_alg».proof.Proof.Gen.KernelIdeal.Points
import proofs.«172510_j84902913507553_2_alg».proof.Proof.Gen.KernelIdeal.Frame
import proofs.«172510_j84902913507553_2_alg».proof.Proof.Gen.ReferenceIdeal
import proofs.«172510_j84902913507553_2_alg».proof.Proof.Gen.Pre_finite_inputs
import proofs.«172510_j84902913507553_2_alg».proof.Proof.Gen.ReferenceIdeal.Run
import proofs.«172510_j84902913507553_2_alg».proof.Proof.Gen.ReferenceIdeal.Read
import proofs.«172510_j84902913507553_2_alg».proof.Proof.BatchDilates
import proofs.«172510_j84902913507553_2_alg».proof.Proof.ReferenceDilates
import Idealize.ShloMosaic.Adequacy
import Idealize.ShloMosaic.Init

noncomputable section

namespace Cert.Proof

open Idealize.ShloMosaic Idealize.ShloMosaic.TcCoe Idealize.SL.Sem

/-- The kernel program as printed runs and leaves its argument alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel and the reference end with the same result: both hold the argument batch with
    every plane dilated. The kernel's run says so of the kernel; the reference's run ends at its chain of maxima over
    the biased windows, which is the dilation, of an argument that agrees with the kernel's. -/
theorem algebraic : Cert.algebraic_KernelIdeal_ReferenceIdeal := by
  intro m ρ m' ρ' _ hagree
  refine ⟨fun c => Cert.Dilation.dilate4 (m ((c.tc : Thread Cert.KernelIdeal.nD Cert.KernelIdeal.τ).loc Cert.KernelIdeal.main_arg0)),
    Cert.KernelIdeal.Dilated.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Dilated.reference_eq_dilate4, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
